-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S131072x128 .f32) (main_arg1 : FVec F S512x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S131072x128 : Shape := ⟨2, ![131072, 128]⟩
abbrev S512x128 : Shape := ⟨2, ![512, 128]⟩
abbrev S_ : Shape := ⟨0, ![]⟩
abbrev S512 : Shape := ⟨1, ![512]⟩
abbrev S512x1 : Shape := ⟨2, ![512, 1]⟩
abbrev S131072x512 : Shape := ⟨2, ![131072, 512]⟩
abbrev S4096x128 : Shape := ⟨2, ![4096, 128]⟩
abbrev S4096x512 : Shape := ⟨2, ![4096, 512]⟩
abbrev S4096 : Shape := ⟨1, ![4096]⟩
abbrev S4096x1 : Shape := ⟨2, ![4096, 1]⟩

abbrev nBuf : Space → Nat
  | .hbm => 14
  | .vmem => 5
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S512x128, .bf16⟩
  | .hbm, ⟨13, _⟩ => ⟨S131072x512, .f32⟩
  | .local _ .vmem, ⟨0, _⟩ => ⟨S4096x128, .f32⟩
  | .local _ .vmem, ⟨1, _⟩ => ⟨S4096x128, .f32⟩
  | .local _ .vmem, ⟨2, _⟩ => ⟨S512x128, .bf16⟩
  | .local _ .vmem, ⟨3, _⟩ => ⟨S4096x512, .f32⟩
  | .local _ .vmem, ⟨4, _⟩ => ⟨S4096x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4096x512_S4096x512_0_0 : ∀ a, (![0, 0] : Fin 2 → Nat) a + S4096x512.size a ≤ S4096x512.size a
  h_S4096x512 : 0 < S4096x512.numel
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S_ : Shape := ⟨0, ![]⟩
abbrev S131072 : Shape := ⟨1, ![131072]⟩
abbrev S131072x1 : Shape := ⟨2, ![131072, 1]⟩
abbrev S512 : Shape := ⟨1, ![512]⟩
abbrev S512x1 : Shape := ⟨2, ![512, 1]⟩
abbrev S131072x512 : Shape := ⟨2, ![131072, 512]⟩

abbrev nBuf : Space → Nat
  | .hbm => 28
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S131072x128, .f32⟩
  | .hbm, ⟨11, _⟩ => ⟨S131072x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x128, .f32⟩
  | .hbm, ⟨21, _⟩ => ⟨S512x128, .f32⟩
  | .hbm, ⟨22, _⟩ => ⟨S131072x512, .f32⟩
  | .hbm, ⟨23, _⟩ => ⟨S_, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  reducesTo_S512x128_S512_d1 : S512x128.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S_S131072x512 : S_.BroadcastsInDim S131072x512 (![] : Fin 0 → Fin S131072x512.rank)
  dot_S131072x128_S512x128_S131072x512_1_1_0_0_n_n_wf : DotDims.WF S131072x128 S512x128 S131072x512 [1] [1] [0] [0] [] []

variable [Facts₀]

def dot_S131072x128_S512x128_S131072x512_1_1_0_0_n_n : DotDims S131072x128 S512x128 S131072x512 where
  lhsContracting := [1]
  rhsContracting := [1]
  lhsNonContracting := [0]
  rhsNonContracting := [0]
  lhsBatch := []
  rhsBatch := []
  wf := dot_S131072x128_S512x128_S131072x512_1_1_0_0_n_n_wf

class Facts : Prop extends Facts₀ where

variable [Facts]
-- ==== Proof.Cosine.lean ====
/-
  The score of one embedding against one prototype, over the extended reals.

  A row of 128 entries has a norm, the square root of the sum of its squares, held from below by the
  f32 value nearest 1e-8; the row divided by that norm is its direction; the cosine of two rows is the
  sum of the products of their directions; the score is minus the square of one minus the cosine.
  `scores` is the whole table: entry (n, q) scores row n of the embeddings against row q of the prototypes.
-/
import Idealize.ShloMosaic.PureOps.Ideal
import Idealize.ShloMosaic.Lib.ValueIdx

noncomputable section

open scoped BigOperators

namespace Cert.Cosine

open Idealize.ShloMosaic Idealize.ShloMosaic.ValueIdx

/-- The floor under a norm: the f32 value nearest 1e-8, as its word. -/
def normFloor : EReal := Ideal.ofBits .f32 0x322BCC77#32

/-- The f32 word of 1. -/
def oneWord : EReal := Ideal.ofBits .f32 0x3F800000#32

/-- A row's norm, floored. -/
def rowNorm (f : Fin 128 → EReal) : EReal := max (Ideal.sqrt (∑ k : Fin 128, f k * f k)) normFloor

/-- A row's direction: each entry over the floored norm. -/
def unitRow (f : Fin 128 → EReal) (k : Fin 128) : EReal := Ideal.div (f k) (rowNorm f)

/-- The cosine of two rows. -/
def cosine (f g : Fin 128 → EReal) : EReal := ∑ k : Fin 128, unitRow f k * unitRow g k

/-- Minus the squared distance of the cosine from one. -/
def score (f g : Fin 128 → EReal) : EReal := -((oneWord - cosine f g) * (oneWord - cosine f g))

/-- Row `r` of an array of rows of 128. -/
def row {R : Nat} (x : (⟨2, ![R, 128]⟩ : Shape).Idx → EReal) (r : Fin R) : Fin 128 → EReal := fun k => x (ix2 r k)

/-- The table of scores of 131072 embeddings against 512 prototypes. -/
def scores (e : (⟨2, ![131072, 128]⟩ : Shape).Idx → EReal) (p : (⟨2, ![512, 128]⟩ : Shape).Idx → EReal) :
    (⟨2, ![131072, 512]⟩ : Shape).Idx → EReal :=
  fun i => score (row e ⟨(i 0).val, idx2_lt0 i⟩) (row p ⟨(i 1).val, idx2_lt1 i⟩)

/-- Entry (n, q) of the table. -/
theorem scores_apply (e : (⟨2, ![131072, 128]⟩ : Shape).Idx → EReal) (p : (⟨2, ![512, 128]⟩ : Shape).Idx → EReal)
    (n : Fin 131072) (q : Fin 512) : scores e p (ix2 n q) = score (row e n) (row p q) := rfl

end Cert.Cosine

end
-- ==== Proof.RefScore.lean ====
/-
  The reference's result is the table of scores.

  Read one operation at a time: the host's sum of a row's squares from zero is the plain sum, its square
  root floored by the shared word is the row's norm, each array divided by its broadcast norms holds the
  rows' directions, the contraction over the 128 channels is the cosine, and the last three operations
  are one minus, square, negate.
-/
import proofs.«139011_j24610162606420_2_alg».proof.Proof.Gen.ReferenceIdeal.Read
import proofs.«139011_j24610162606420_2_alg».proof.Proof.Cosine

noncomputable section

open scoped BigOperators

namespace Cert.RefScore

open Cert.ReferenceIdeal Cert.ReferenceIdeal.Read Cert.Cosine Idealize.ShloMosaic Idealize.ShloMosaic.ValueIdx

variable (x0 : (⟨S131072x128, .f32⟩ : BufTy).Contents (Elt Ideal)) (x1 : (⟨S512x128, .f32⟩ : BufTy).Contents (Elt Ideal))

/-- The entries summed for the norm of embedding `n` are those of its row. -/
theorem idx_sq_e (n : Fin 131072) (k : Fin 128) :
    idx_main_call0_v1 (idx_main_call0_v2 (ix2 n (0 : Fin 1))) k = ix2 n k :=
  funext fun a => Fin.ext (by match a with | ⟨0, _⟩ => rfl | ⟨1, _⟩ => rfl)

/-- The entries summed for the norm of prototype `q` are those of its row. -/
theorem idx_sq_p (q : Fin 512) (k : Fin 128) :
    idx_main_call1_v1 (idx_main_call1_v2 (ix2 q (0 : Fin 1))) k = ix2 q k :=
  funext fun a => Fin.ext (by match a with | ⟨0, _⟩ => rfl | ⟨1, _⟩ => rfl)

/-- The floored norm of embedding `n`. -/
theorem norm_e (n : Fin 131072) : val_main_v2 (F := Ideal) x0 (ix2 n (0 : Fin 1)) = rowNorm (row x0 n) := by
  rw [val_main_v2_apply, val_main_v0_apply, val_main_call0_v2_apply, val_main_call0_v1_apply, val_main_v1_apply]
  simp only [val_main_cst_apply, val_main_call0_cst_apply, val_main_call0_v0_apply, idx_sq_e, Ideal.maximumf_def,
    Ideal.hostUnary_sqrt_def, Ideal.ofBits_def, Ideal.ofBits_zero_f32, Ideal.mulf_def, zero_add]
  rfl

/-- The floored norm of prototype `q`. -/
theorem norm_p (q : Fin 512) : val_main_v7 (F := Ideal) x1 (ix2 q (0 : Fin 1)) = rowNorm (row x1 q) := by
  rw [val_main_v7_apply, val_main_v5_apply, val_main_call1_v2_apply, val_main_call1_v1_apply, val_main_v6_apply]
  simp only [val_main_cst_0_apply, val_main_call1_cst_apply, val_main_call1_v0_apply, idx_sq_p, Ideal.maximumf_def,
    Ideal.hostUnary_sqrt_def, Ideal.ofBits_def, Ideal.ofBits_zero_f32, Ideal.mulf_def, zero_add]
  rfl

/-- The normalised embeddings hold each row's direction. -/
theorem dir_e (n : Fin 131072) (k : Fin 128) : val_main_v4 (F := Ideal) x0 (ix2 n k) = unitRow (row x0 n) k := by
  have hi : idx_main_v3 (ix2 n k) = ix2 n (0 : Fin 1) :=
    funext fun a => Fin.ext (by match a with | ⟨0, _⟩ => rfl | ⟨1, _⟩ => rfl)
  rw [val_main_v4_apply, val_main_v3_apply, hi, norm_e]
  rfl

/-- The normalised prototypes hold each row's direction. -/
theorem dir_p (q : Fin 512) (k : Fin 128) : val_main_v9 (F := Ideal) x1 (ix2 q k) = unitRow (row x1 q) k := by
  have hi : idx_main_v8 (ix2 q k) = ix2 q (0 : Fin 1) :=
    funext fun a => Fin.ext (by match a with | ⟨0, _⟩ => rfl | ⟨1, _⟩ => rfl)
  rw [val_main_v9_apply, val_main_v8_apply, hi, norm_p]
  rfl

/-- The contraction over the channels is the cosine. -/
theorem cos_ref (n : Fin 131072) (q : Fin 512) :
    val_main_v10 (F := Ideal) x0 x1 (ix2 n q) = cosine (row x0 n) (row x1 q) := by
  rw [val_main_v10_apply]
  refine Finset.sum_congr rfl fun k _ => ?_
  have hl : lidx_main_v10 (ix2 n q) k = ix2 n k :=
    funext fun a => Fin.ext (by match a with | ⟨0, _⟩ => rfl | ⟨1, _⟩ => rfl)
  have hr : ridx_main_v10 (ix2 n q) k = ix2 q k :=
    funext fun a => Fin.ext (by match a with | ⟨0, _⟩ => rfl | ⟨1, _⟩ => rfl)
  rw [hl, hr, dir_e, dir_p]

/-- The reference's result is the table of scores. -/
theorem result_eq : val_main_v14 (F := Ideal) x0 x1 = scores x0 x1 := by
  funext i
  obtain ⟨n, q, rfl⟩ : ∃ (n : Fin 131072) (q : Fin 512), i = ix2 n q := ⟨i 0, i 1, eq_ix2 i⟩
  rw [val_main_v14_apply, val_main_v13_apply, val_main_v12_apply, val_main_v11_apply, val_main_cst_1_apply, cos_ref,
    scores_apply]
  rfl

end Cert.RefScore

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.BodyScore.lean ====
/-
  What the kernel body stores, entry by entry.

  From a block of 4096 embeddings and the 512 prepared prototype rows the body stores, at (p, q), zero minus the
  square of one minus the sum over the 128 channels of embedding p's direction times prototype row q's entry:
  the lane sum of squares is the row's plain sum, its square root floored by the shared word is the row's norm,
  the column of norms broadcast across the lanes divides the block, the change of format is the identity, and the
  matrix product into a zero accumulator is the sum of products.
-/
import proofs.«139011_j24610162606420_2_alg».proof.Proof.Gen.KernelIdeal.Skeleton
import proofs.«139011_j24610162606420_2_alg».proof.Proof.Cosine
import proofs.«139011_j24610162606420_2_alg».proof.Proof.LibRowReduce
import proofs.«139011_j24610162606420_2_alg».proof.Proof.LibColBroadcast
import Idealize.ShloMosaic.PureOps.Ideal.Laws
import Idealize.ShloMosaic.Lib.ValueIdx
import Idealize.ShloMosaic.Lib.Pipeline.Value

noncomputable section

open scoped BigOperators

namespace Cert.BodyScore

open Cert.KernelIdeal Cert.KernelIdeal.Gen Cert.Cosine
open Idealize.ShloMosaic Idealize.ShloMosaic.ValueIdx

/-- The left operand's index at output (p, q) and contraction index k has row p … -/
theorem lhs0 (i : S4096x512.Idx) (c : dot_S4096x128_S512x128_S4096x512_1_1_0_0_n_n.contr.Idx) : (dot_S4096x128_S512x128_S4096x512_1_1_0_0_n_n.lhsIdx i c 0).val = (i 0).val := by
  unfold DotDims.lhsIdx
  rw [dif_neg (show ¬(0 : Fin S4096x128.rank) ∈ dot_S4096x128_S512x128_S4096x512_1_1_0_0_n_n.lhsBatch by decide),
    dif_pos (show (0 : Fin S4096x128.rank) ∈ dot_S4096x128_S512x128_S4096x512_1_1_0_0_n_n.lhsNonContracting by decide)]
  rfl
/-- … and channel k; -/
theorem lhs1 (i : S4096x512.Idx) (c : dot_S4096x128_S512x128_S4096x512_1_1_0_0_n_n.contr.Idx) : (dot_S4096x128_S512x128_S4096x512_1_1_0_0_n_n.lhsIdx i c 1).val = (c ⟨0, by decide⟩).val :=
  dot_S4096x128_S512x128_S4096x512_1_1_0_0_n_n.lhsIdx_val_of_single rfl i c
/-- the right operand's has row q … -/
theorem rhs0 (i : S4096x512.Idx) (c : dot_S4096x128_S512x128_S4096x512_1_1_0_0_n_n.contr.Idx) : (dot_S4096x128_S512x128_S4096x512_1_1_0_0_n_n.rhsIdx i c 0).val = (i 1).val := by
  unfold DotDims.rhsIdx
  rw [dif_neg (show ¬(0 : Fin S512x128.rank) ∈ dot_S4096x128_S512x128_S4096x512_1_1_0_0_n_n.rhsBatch by decide),
    dif_pos (show (0 : Fin S512x128.rank) ∈ dot_S4096x128_S512x128_S4096x512_1_1_0_0_n_n.rhsNonContracting by decide)]
  rfl
/-- … and channel k. -/
theorem rhs1 (i : S4096x512.Idx) (c : dot_S4096x128_S512x128_S4096x512_1_1_0_0_n_n.contr.Idx) : (dot_S4096x128_S512x128_S4096x512_1_1_0_0_n_n.rhsIdx i c 1).val = (c ⟨0, by decide⟩).val :=
  dot_S4096x128_S512x128_S4096x512_1_1_0_0_n_n.rhsIdx_val_of_single rfl i c

/-- The matrix product of a [4096, 128] block with the [512, 128] rows, both contracted along the channels, into a
    zero accumulator: at (p, q) the sum over the channels of the products. -/
theorem matmul_rows (a : FVec Ideal S4096x128 .bf16) (b : FVec Ideal S512x128 .bf16) (p : Fin 4096) (q : Fin 512) :
    matmul (F := Ideal) dot_S4096x128_S512x128_S4096x512_1_1_0_0_n_n none a b (constant S4096x512 .f32 0x00000000#32) (ix2 p q)
      = ∑ k : Fin 128, a (ix2 p k) * b (ix2 q k) := by
  simp only [matmul]
  rw [Ideal.matmul_constant_zero_apply, ← Equiv.sum_comp (contrEquiv1 dot_S4096x128_S512x128_S4096x512_1_1_0_0_n_n 128 rfl rfl).symm]
  refine Finset.sum_congr rfl fun k _ => ?_
  have hk := contrEquiv1_symm_val dot_S4096x128_S512x128_S4096x512_1_1_0_0_n_n 128 rfl rfl k
  have el : dot_S4096x128_S512x128_S4096x512_1_1_0_0_n_n.lhsIdx (ix2 p q) ((contrEquiv1 dot_S4096x128_S512x128_S4096x512_1_1_0_0_n_n 128 rfl rfl).symm k) = ix2 p k := funext fun c => Fin.ext (by
    match c with
    | ⟨0, _⟩ => exact lhs0 _ _
    | ⟨1, _⟩ => exact (lhs1 _ _).trans hk)
  have er : dot_S4096x128_S512x128_S4096x512_1_1_0_0_n_n.rhsIdx (ix2 p q) ((contrEquiv1 dot_S4096x128_S512x128_S4096x512_1_1_0_0_n_n 128 rfl rfl).symm k) = ix2 q k := funext fun c => Fin.ext (by
    match c with
    | ⟨0, _⟩ => exact rhs0 _ _
    | ⟨1, _⟩ => exact (rhs1 _ _).trans hk)
  rw [el, er]

/-- The column of floored norms of a block, at row p. -/
theorem norm_col (x0 : FVec Ideal S4096x128 .f32) (p : Fin 4096) :
    (maximumf (sqrt (shapeCast S4096x1 (multiReduction (F := Ideal) .add [1] S4096 (mulf x0 x0) 0x00000000#32
        Facts₀.reduces_S4096x128_S4096 (.inl rfl) rfl) Facts₀.shapeCasts_S4096_S4096x1))
      (broadcast S4096x1 (FloatOps.ofBits (F := Ideal) .f32 0x322BCC77#32)) : FVec Ideal S4096x1 .f32) (ix2 p (0 : Fin 1))
      = rowNorm (row x0 p) := by
  show max (Ideal.sqrt (shapeCast S4096x1 _ Facts₀.shapeCasts_S4096_S4096x1 (ix2 p (0 : Fin 1)))) normFloor = _
  rw [Cert.LibRowReduce.shapeCast_col_apply]
  exact congrArg (fun s => max (Ideal.sqrt s) normFloor)
    (Cert.LibRowReduce.multiReduction_add_row (mulf x0 x0) Facts₀.reduces_S4096x128_S4096 (.inl rfl) rfl p)

/-- The block divided by its broadcast norms, at (p, k): the direction of row p at channel k. -/
theorem dir_block (x0 : FVec Ideal S4096x128 .f32) (p : Fin 4096) (k : Fin 128) :
    (truncf .bf16 (divf x0 (broadcastTo S4096x128
        (maximumf (sqrt (shapeCast S4096x1 (multiReduction (F := Ideal) .add [1] S4096 (mulf x0 x0) 0x00000000#32
            Facts₀.reduces_S4096x128_S4096 (.inl rfl) rfl) Facts₀.shapeCasts_S4096_S4096x1))
          (broadcast S4096x1 (FloatOps.ofBits (F := Ideal) .f32 0x322BCC77#32)))
        Facts₀.broadcasts_S4096x1_S4096x128)) Facts₀.bitsLt_bf16_f32 : FVec Ideal S4096x128 .bf16) (ix2 p k)
      = unitRow (row x0 p) k := by
  show Ideal.div (x0 (ix2 p k)) (broadcastTo S4096x128 _ Facts₀.broadcasts_S4096x1_S4096x128 (ix2 p k)) = _
  rw [Cert.LibColBroadcast.broadcastTo_a1_ab_apply, norm_col]
  rfl

/-- THE BODY'S STORE at (p, q): zero minus the square of one minus the sum over the channels of the direction of
    the block's row p times the prepared rows' entry (q, k). -/
theorem store_apply (x0 : Vec Ideal S4096x128 .f32) (x1 : Vec Ideal S512x128 .bf16) (p : Fin 4096) (q : Fin 512) :
    k0_pay1 (F := Ideal) x0 x1 (ix2 p q)
      = -((oneWord - ∑ k : Fin 128, unitRow (row x0 p) k * x1 (ix2 q k))
          * (oneWord - ∑ k : Fin 128, unitRow (row x0 p) k * x1 (ix2 q k))) := by
  unfold k0_pay1
  dsimp only
  simp only [subf_apply, mulf_apply, broadcast_apply]
  rw [matmul_rows]
  show Ideal.ofBits .f32 0x00000000#32 - _ = _
  rw [Ideal.ofBits_zero_f32, zero_sub]
  refine congrArg (fun s => -((oneWord - s) * (oneWord - s))) (Finset.sum_congr rfl fun k _ => ?_)
  rw [shapeCast_self]
  exact congrArg (· * x1 (ix2 q k)) (dir_block x0 p k)

end Cert.BodyScore

end
-- ==== Proof.ProtoRows.lean ====
/-
  The prototype rows as the kernel receives them.

  Before the kernel is launched the host divides each prototype row by its floored norm (the sum of the row's squares
  from zero, its square root, the maximum with the shared word, broadcast back across the row) and changes the format,
  which is the identity on the extended reals. So the second operand's array, when the region is entered, holds at
  (q, k) the direction of prototype row q at channel k.
-/
import proofs.«139011_j24610162606420_2_alg».proof.Proof.Gen.KernelIdeal.Frame
import proofs.«139011_j24610162606420_2_alg».proof.Proof.Cosine
import proofs.«139011_j24610162606420_2_alg».proof.Proof.LibRowReduce
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ProtoRows

open Cert.KernelIdeal Cert.KernelIdeal.Gen Cert.Cosine
open Idealize.ShloMosaic Idealize.ShloMosaic.TcCoe Idealize.SL.Sem Idealize.ShloMosaic.ValueIdx

/-- The host's preparation of the prototypes, as one function of the prototype array. -/
def prepared (a1 : FVec Ideal S512x128 .f32) : FVec Ideal S512x128 .bf16 :=
  truncf .bf16 (Host.divf (F := Ideal) a1 (broadcastInDim S512x128 ![0, 1] Facts₀.bcast_S512x1_S512x128_0_1
    (maximumf (Host.sqrt (F := Ideal) (broadcastInDim S512x1 ![0] Facts₀.bcast_S512_S512x1_0
        (Host.reduceAdd (F := Ideal) (mulf a1 a1) (constant (F := Ideal) S_ .f32 0x00000000#32) Facts₀.reducesTo_S512x128_S512_d1 Facts₀.h_S_)))
      (broadcastInDim S512x1 ![] Facts₀.bcast_S_S512x1 (constant (F := Ideal) S_ .f32 0x322BCC77#32))))) Facts₀.bitsLt_bf16_f32

/-- Entry (q, k) of the prepared rows is the direction of prototype row q at channel k. -/
theorem prepared_apply (a1 : FVec Ideal S512x128 .f32) (q : Fin 512) (k : Fin 128) :
    prepared a1 (ix2 q k) = unitRow (row a1 q) k := by
  unfold prepared
  show Ideal.div (a1 (ix2 q k)) (broadcastInDim (s := S512x1) S512x128 ![0, 1] Facts₀.bcast_S512x1_S512x128_0_1 _ (ix2 q k)) = _
  rw [broadcastInDim_apply _ Facts₀.bcast_S512x1_S512x128_0_1 _ (ix2 q k) (ix2 q (0 : Fin 1)) (fun a => match a with
    | ⟨0, _⟩ => by show q.val = if (512 : Nat) = 1 then 0 else q.val; rw [if_neg (by decide)]
    | ⟨1, _⟩ => by show 0 = if (1 : Nat) = 1 then 0 else k.val; rw [if_pos rfl])]
  show Ideal.div _ (max (Ideal.sqrt (broadcastInDim (s := S512) S512x1 ![0] Facts₀.bcast_S512_S512x1_0 _ (ix2 q (0 : Fin 1))))
    (broadcastInDim (s := S_) S512x1 ![] Facts₀.bcast_S_S512x1 _ (ix2 q (0 : Fin 1)))) = _
  rw [broadcastInDim_apply _ Facts₀.bcast_S512_S512x1_0 _ (ix2 q (0 : Fin 1)) (ix1 q) (fun a => match a with
      | ⟨0, _⟩ => by show q.val = if (512 : Nat) = 1 then 0 else q.val; rw [if_neg (by decide)]),
    broadcastInDim_apply _ Facts₀.bcast_S_S512x1 _ (ix2 q (0 : Fin 1)) ix0 (fun a => a.elim0),
    Cert.LibRowReduce.hostReduceAdd_row (mulf a1 a1) (constant (F := Ideal) S_ .f32 0x00000000#32)
      (fun _ => Ideal.ofBits_zero_f32) Facts₀.reducesTo_S512x128_S512_d1
      (by decide) Facts₀.h_S_ q]
  rfl

variable (m : (ℓ : Loc nD τ sig) → Buf (Elt Ideal) ℓ)

/-- When the region is entered the second operand's array is the prepared prototypes. -/
theorem V_rows (c : Dev nD) :
    (V m c main_v5 : S512x128.Idx → EReal) = prepared (m ((c : Thread nD τ).loc main_arg1)) := by
  dsimp only [Gen.V]
  simp only [Gen.hostOps0, Gen.hostOps0_1, List.flatten_cons, List.flatten_nil, List.append_nil, List.cons_append,
    List.nil_append]
  after_results
  rfl

end Cert.ProtoRows

end
-- ==== Proof.Blocks.lean ====
/-
  From the blocks to the table.

  The grid has 32 points. Point t reads rows 4096 t … 4096 t + 4095 of the embeddings and the whole array of prepared
  prototype rows, and writes back rows 4096 t … 4096 t + 4095 of the result. What it writes at (p, q) is the body's
  store, which is the score of embedding 4096 t + p against prototype q; the 32 blocks of 4096 rows cover the
  131072 rows, so the result array ends as the table of scores.
-/
import proofs.«139011_j24610162606420_2_alg».proof.Proof.Gen.KernelIdeal.Value
import proofs.«139011_j24610162606420_2_alg».proof.Proof.BodyScore
import proofs.«139011_j24610162606420_2_alg».proof.Proof.ProtoRows
import Idealize.ShloMosaic.Lib.Pipeline.Value

noncomputable section

open scoped BigOperators

namespace Cert.KernelScore

open Cert.KernelIdeal Cert.KernelIdeal.Gen Cert.Cosine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The embeddings as launched. -/
abbrev embeddings (c : Dev nD) : S131072x128.Idx → EReal := m ((c : Thread nD τ).loc main_arg0)
/-- The prototypes as launched. -/
abbrev prototypes (c : Dev nD) : S512x128.Idx → EReal := m ((c : Thread nD τ).loc main_arg1)

theorem zero_offsets : (![0, 0] : Fin 2 → Nat) = fun _ => 0 := funext fun a => by fin_cases a <;> rfl

/-- The three index maps over the grid: the embeddings' and the result's blocks move down with the point, the
    prototypes' block stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the embeddings' block at point t is row 4096 t + p of the embeddings. -/
theorem emb_block (c : Dev nD) (t : Fin cfg0.N) (p : Fin 4096) (k : Fin 128) (n : Fin 131072)
    (hn : n.val = t.val * 4096 + p.val) :
    (iblk m c 0 t : Vec Ideal S4096x128 .f32) (ix2 p k) = embeddings m c (ix2 n k) := by
  obtain ⟨e0, e1, -⟩ := index_facts t
  unfold iblk
  rw [View.read_apply]
  show V m c main_arg0 _ = _
  rw [V_main_arg0]
  refine congrArg (embeddings m c) (funext fun a => Fin.ext ?_)
  match a with
  | ⟨0, _⟩ => show win0_0.index t (0 : Fin 2) * 4096 + 1 * p.val = n.val; rw [e0, hn]; omega
  | ⟨1, _⟩ => show win0_0.index t (1 : Fin 2) * 128 + 1 * k.val = k.val; rw [e1]; omega

/-- The prototypes' block at any point holds, at (q, k), the direction of prototype row q at channel k. -/
theorem proto_block (c : Dev nD) (t : Fin cfg0.N) (q : Fin 512) (k : Fin 128) :
    (iblk m c 1 t : Vec Ideal S512x128 .bf16) (ix2 q k) = unitRow (row (prototypes m c) q) k := by
  obtain ⟨-, -, e2, e3, -⟩ := index_facts t
  unfold iblk
  rw [View.read_apply]
  show V m c main_v5 _ = _
  rw [Cert.ProtoRows.V_rows]
  refine (congrArg (Cert.ProtoRows.prepared (prototypes m c)) (funext fun a => Fin.ext ?_)).trans
    (Cert.ProtoRows.prepared_apply (prototypes m c) q k)
  match a with
  | ⟨0, _⟩ => show win0_1.index t (0 : Fin 2) * 512 + 1 * q.val = q.val; rw [e2]; omega
  | ⟨1, _⟩ => show win0_1.index t (1 : Fin 2) * 128 + 1 * k.val = k.val; rw [e3]; omega

/-- WHAT POINT t WRITES BACK is block t of the table of scores. -/
theorem flushed_eq (c : Dev nD) (t : Fin cfg0.N) :
    (dats m 0 c).flushed 2 t
      = ((cfg0.win 2).blk t).view.read (Elt Ideal) (scores (embeddings m c) (prototypes m c)) := by
  rw [Cert.KernelIdeal.Value.flushed2]
  unfold out0_2
  rw [View.canon_unit_zero zero_offsets]
  simp only [View.ld_unit_zero (S := S4096x128) zero_offsets, View.ld_unit_zero (S := S512x128) zero_offsets]
  obtain ⟨-, -, -, -, e4, e5⟩ := index_facts t
  funext j
  obtain ⟨p, q, rfl⟩ : ∃ (p : Fin 4096) (q : Fin 512), j = ix2 p q := ⟨j 0, j 1, eq_ix2 j⟩
  have hn : t.val * 4096 + p.val < 131072 := by
    have ht : t.val < 32 := lt_of_lt_of_eq t.isLt N_0
    have hp : p.val < 4096 := p.isLt
    omega
  show k0_pay1 (iblk m c 0 t) (iblk m c 1 t) (ix2 p q)
    = scores (embeddings m c) (prototypes m c) (((cfg0.win 2).blk t).view.emb (ix2 p q))
  have hi : ((cfg0.win 2).blk t).view.emb (ix2 p q) = ix2 (⟨t.val * 4096 + p.val, hn⟩ : Fin 131072) q :=
    funext fun a => Fin.ext (by
      match a with
      | ⟨0, _⟩ => show win0_2.index t (0 : Fin 2) * 4096 + 1 * p.val = t.val * 4096 + p.val; rw [e4]; omega
      | ⟨1, _⟩ => show win0_2.index t (1 : Fin 2) * 512 + 1 * q.val = q.val; rw [e5]; omega)
  rw [hi, scores_apply]
  refine (Cert.BodyScore.store_apply (iblk m c 0 t) (iblk m c 1 t) p q).trans ?_
  have he : row (iblk m c 0 t : Vec Ideal S4096x128 .f32) p
      = row (embeddings m c) (⟨t.val * 4096 + p.val, hn⟩ : Fin 131072) :=
    funext fun k => emb_block m c t p k _ rfl
  have hc : (∑ k : Fin 128, unitRow (row (iblk m c 0 t : Vec Ideal S4096x128 .f32) p) k
        * (iblk m c 1 t : Vec Ideal S512x128 .bf16) (ix2 q k))
      = cosine (row (embeddings m c) (⟨t.val * 4096 + p.val, hn⟩ : Fin 131072)) (row (prototypes m c) q) :=
    Finset.sum_congr rfl fun k _ => by rw [he, proto_block m c t q k]
  rw [hc]
  rfl

/-- An index of the result is in point t's block iff its row is one of the block's 4096 and its column any. -/
theorem mem_block (t : Fin cfg0.N) (i : S131072x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v6).slice (win0_2.rect t)).set ↔ _
  rw [View.set_slice_whole, Rect.mem_set_unit]
  exact Iff.rfl

/-- Every entry of the result is written: row r by point r / 4096. -/
theorem covered (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  have ht : (i 0).val / 4096 < cfg0.N := lt_of_lt_of_eq (by omega : (i 0).val / 4096 < 32) N_0.symm
  obtain ⟨-, -, -, -, e4, e5⟩ := index_facts ⟨(i 0).val / 4096, ht⟩
  refine ⟨⟨(i 0).val / 4096, ht⟩, flush0_2 _, ?_⟩
  rw [mem_block]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e4]
    show (i 0).val / 4096 * 4096 ≤ (i 0).val ∧ (i 0).val < (i 0).val / 4096 * 4096 + 4096
    omega
  | ⟨1, _⟩ =>
    show win0_2.index ⟨(i 0).val / 4096, ht⟩ (1 : Fin 2) * 512 ≤ (i 1).val
      ∧ (i 1).val < win0_2.index ⟨(i 0).val / 4096, ht⟩ (1 : Fin 2) * 512 + 512
    rw [e5]
    omega

/-- THE RESULT ARRAY after the run is the table of scores of the launched arrays. -/
theorem final (c : Dev nD) :
    (dats m 0 c).arrAt 2 cfg0.N = scores (embeddings m c) (prototypes m c) :=
  (dats m 0 c).arrAt_eq_of_cover 2 (scores (embeddings m c) (prototypes m c)) (fun t _ => flushed_eq m c t) covered

/-- The kernel's run, read: the result at the table of scores, the arguments unchanged. -/
theorem run : θ_run defs (onTc (τ := τ) (main (F := Ideal))) ⟨m, fun _ => 0, ρ⟩ fun r => ∀ c : Dev nD,
      r.2.mem ((c : Thread nD τ).loc main_v6) = scores (embeddings m c) (prototypes m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelScore

end
-- ==== Proof.lean ====
/-
  Cosine scores of 131072 embeddings against 512 prototypes: the kernel against its reference, over the extended reals.

  Both programs compute, at (n, q), minus the square of one minus the cosine of embedding row n and prototype row q,
  where a row's direction is the row over its norm, the norm the square root of the sum of the row's squares held from
  below by one shared f32 word (`Cert.Cosine`). The reference does it whole on the host (`Cert.RefScore.result_eq`). The
  kernel program normalises the prototypes on the host (`Cert.ProtoRows`), and at each of 32 grid points its body
  normalises a block of 4096 embeddings, takes the matrix product with the prepared rows and stores zero minus the square
  of one minus it (`Cert.BodyScore.store_apply`); the blocks cover the result (`Cert.KernelScore.final`). A change of float
  format is the identity here, a lane sum and a host sum from zero are the same plain sum, a matrix product into a zero
  accumulator and the host's contraction are the same sum of products, and zero minus x is minus x: so the two results
  are one function of the arguments, with no use of the inputs' finiteness. The pass that printed the idealized kernel
  rewrote nothing, so that the idealization is sanctioned holds trivially; the three frames are the generated ones, the
  reference's being its generated run with the result dropped.
-/
import proofs.«139011_j24610162606420_2_alg».proof.Defs
import proofs.«139011_j24610162606420_2_alg».proof.Proof.Gen.Kernel
import proofs.«139011_j24610162606420_2_alg».proof.Proof.Gen.Kernel.Skeleton
import proofs.«139011_j24610162606420_2_alg».proof.Proof.Gen.Kernel.Launch
import proofs.«139011_j24610162606420_2_alg».proof.Proof.Gen.Kernel.Points
import proofs.«139011_j24610162606420_2_alg».proof.Proof.Gen.Kernel.Frame
import proofs.«139011_j24610162606420_2_alg».proof.Proof.Gen.KernelIdeal
import proofs.«139011_j24610162606420_2_alg».proof.Proof.Gen.KernelIdeal.Skeleton
import proofs.«139011_j24610162606420_2_alg».proof.Proof.Gen.KernelIdeal.Launch
import proofs.«139011_j24610162606420_2_alg».proof.Proof.Gen.KernelIdeal.Points
import proofs.«139011_j24610162606420_2_alg».proof.Proof.Gen.KernelIdeal.Frame
import proofs.«139011_j24610162606420_2_alg».proof.Proof.Gen.ReferenceIdeal
import proofs.«139011_j24610162606420_2_alg».proof.Proof.Gen.KernelIdeal.Value
import proofs.«139011_j24610162606420_2_alg».proof.Proof.Gen.ReferenceIdeal.Run
import proofs.«139011_j24610162606420_2_alg».proof.Proof.Gen.ReferenceIdeal.Read
import proofs.«139011_j24610162606420_2_alg».proof.Proof.Gen.Pre_finite_inputs
import proofs.«139011_j24610162606420_2_alg».proof.Proof.RefScore
import proofs.«139011_j24610162606420_2_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the idealized kernel and the reference both end at the table of scores. -/
theorem algebraic : Cert.algebraic_KernelIdeal_ReferenceIdeal := by
  intro m ρ m' ρ' _ hagree
  refine ⟨fun c => Cert.Cosine.scores (Cert.KernelScore.embeddings m c) (Cert.KernelScore.prototypes m c),
    Cert.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefScore.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
